-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x16x1024 : Shape := ⟨4, ![32, 16, 16, 1024]⟩
abbrev S32x256x9x256 : Shape := ⟨4, ![32, 256, 9, 256]⟩
abbrev S_ : Shape := ⟨0, ![]⟩

class Facts : Prop where
  bcast_S_S32x16x16x1024 : S_.BroadcastsInDim S32x16x16x1024 (![] : Fin 0 → Fin S32x16x16x1024.rank)
  reducesTo_S32x16x16x1024_S_d0_1_2_3 : S32x16x16x1024.ReducesTo [0, 1, 2, 3] S_
  h_S_ : 0 < S_.numel
  bcast_S_S32x256x9x256 : S_.BroadcastsInDim S32x256x9x256 (![] : Fin 0 → Fin S32x256x9x256.rank)
  reducesTo_S32x256x9x256_S_d0_1_2_3 : S32x256x9x256.ReducesTo [0, 1, 2, 3] S_

variable [Facts]

def fn {F : FTy → Type} [FloatOps F] (main_arg0 : FVec F S32x16x16x1024 .f32) (main_arg1 : FVec F S32x256x9x256 .f32) : IVec S_ 1 :=
  let main_v0 : FVec F S32x16x16x1024 .f32 := Host.absf main_arg0
  let main_cst : FVec F S_ .f32 := constant S_ .f32 0x7F800000#32
  let main_v1 : FVec F S32x16x16x1024 .f32 := broadcastInDim S32x16x16x1024 ![] bcast_S_S32x16x16x1024 main_cst
  let main_v2 : IVec S32x16x16x1024 1 := cmpf .olt main_v0 main_v1
  let main_c : IVec S_ 1 := constantI S_ 1 1#1
  let main_v3 : IVec S_ 1 := (fun x v => Host.reduce IntOp.andi x v reducesTo_S32x16x16x1024_S_d0_1_2_3 h_S_) main_v2 main_c
  let main_v4 : FVec F S32x256x9x256 .f32 := Host.absf main_arg1
  let main_cst_0 : FVec F S_ .f32 := constant S_ .f32 0x7F800000#32
  let main_v5 : FVec F S32x256x9x256 .f32 := broadcastInDim S32x256x9x256 ![] bcast_S_S32x256x9x256 main_cst_0
  let main_v6 : IVec S32x256x9x256 1 := cmpf .olt main_v4 main_v5
  let main_c_1 : IVec S_ 1 := constantI S_ 1 1#1
  let main_v7 : IVec S_ 1 := (fun x v => Host.reduce IntOp.andi x v reducesTo_S32x256x9x256_S_d0_1_2_3 h_S_) main_v6 main_c_1
  let main_v8 : IVec S_ 1 := andi main_v3 main_v7
  main_v8
-- ==== Kernel.lean ====
abbrev S32x16x16x1024 : Shape := ⟨4, ![32, 16, 16, 1024]⟩
abbrev S32x256x9x256 : Shape := ⟨4, ![32, 256, 9, 256]⟩
abbrev S_ : Shape := ⟨0, ![]⟩
abbrev S32x18x18x1024 : Shape := ⟨4, ![32, 18, 18, 1024]⟩
abbrev S32x16x16x1x1024 : Shape := ⟨5, ![32, 16, 16, 1, 1024]⟩
abbrev S32x16x16x9x1024 : Shape := ⟨5, ![32, 16, 16, 9, 1024]⟩
abbrev S32x16x16x9216 : Shape := ⟨4, ![32, 16, 16, 9216]⟩
abbrev S32x4x256x9x256 : Shape := ⟨5, ![32, 4, 256, 9, 256]⟩
abbrev S32x4x256x256 : Shape := ⟨4, ![32, 4, 256, 256]⟩
abbrev S1x256x9x256 : Shape := ⟨4, ![1, 256, 9, 256]⟩
abbrev S1x4x256x9x256 : Shape := ⟨5, ![1, 4, 256, 9, 256]⟩
abbrev S1x4x256x256 : Shape := ⟨4, ![1, 4, 256, 256]⟩
abbrev S256x9x256 : Shape := ⟨3, ![256, 9, 256]⟩
abbrev S1x1x256x9x256 : Shape := ⟨5, ![1, 1, 256, 9, 256]⟩
abbrev S256x256 : Shape := ⟨2, ![256, 256]⟩
abbrev S1x1x256x256 : Shape := ⟨4, ![1, 1, 256, 256]⟩
abbrev S32x1024x16x16 : Shape := ⟨4, ![32, 1024, 16, 16]⟩

abbrev nBuf : Space → Nat
  | .hbm => 28
  | .vmem => 6
  | .smem => 0
  | _ => 0

abbrev bufTy : (tb : Table) → Fin (tcTables nBuf tb) → BufTy
  | .hbm, ⟨0, _⟩ => ⟨S32x16x16x1024, .f32⟩
  | .hbm, ⟨1, _⟩ => ⟨S32x256x9x256, .f32⟩
  | .hbm, ⟨2, _⟩ => ⟨S_, .i32⟩
  | .hbm, ⟨3, _⟩ => ⟨S_, .f32⟩
  | .hbm, ⟨4, _⟩ => ⟨S32x18x18x1024, .f32⟩
  | .hbm, ⟨5, _⟩ => ⟨S32x16x16x1024, .f32⟩
  | .hbm, ⟨6, _⟩ => ⟨S32x16x16x1024, .f32⟩
  | .hbm, ⟨7, _⟩ => ⟨S32x16x16x1024, .f32⟩
  | .hbm, ⟨8, _⟩ => ⟨S32x16x16x1024, .f32⟩
  | .hbm, ⟨9, _⟩ => ⟨S32x16x16x1024, .f32⟩
  | .hbm, ⟨10, _⟩ => ⟨S32x16x16x1024, .f32⟩
  | .hbm, ⟨11, _⟩ => ⟨S32x16x16x1024, .f32⟩
  | .hbm, ⟨12, _⟩ => ⟨S32x16x16x1024, .f32⟩
  | .hbm, ⟨13, _⟩ => ⟨S32x16x16x1024, .f32⟩
  | .hbm, ⟨14, _⟩ => ⟨S32x16x16x1x1024, .f32⟩
  | .hbm, ⟨15, _⟩ => ⟨S32x16x16x1x1024, .f32⟩
  | .hbm, ⟨16, _⟩ => ⟨S32x16x16x1x1024, .f32⟩
  | .hbm, ⟨17, _⟩ => ⟨S32x16x16x1x1024, .f32⟩
  | .hbm, ⟨18, _⟩ => ⟨S32x16x16x1x1024, .f32⟩
  | .hbm, ⟨19, _⟩ => ⟨S32x16x16x1x1024, .f32⟩
  | .hbm, ⟨20, _⟩ => ⟨S32x16x16x1x1024, .f32⟩
  | .hbm, ⟨21, _⟩ => ⟨S32x16x16x1x1024, .f32⟩
  | .hbm, ⟨22, _⟩ => ⟨S32x16x16x1x1024, .f32⟩
  | .hbm, ⟨23, _⟩ => ⟨S32x16x16x9x1024, .f32⟩
  | .hbm, ⟨24, _⟩ => ⟨S32x16x16x9216, .f32⟩
  | .hbm, ⟨25, _⟩ => ⟨S32x4x256x9x256, .f32⟩
  | .hbm, ⟨26, _⟩ => ⟨S32x4x256x256, .f32⟩
  | .hbm, ⟨27, _⟩ => ⟨S32x1024x16x16, .f32⟩
  | .local _ .vmem, ⟨0, _⟩ => ⟨S1x256x9x256, .f32⟩
  | .local _ .vmem, ⟨1, _⟩ => ⟨S1x256x9x256, .f32⟩
  | .local _ .vmem, ⟨2, _⟩ => ⟨S1x4x256x9x256, .f32⟩
  | .local _ .vmem, ⟨3, _⟩ => ⟨S1x4x256x9x256, .f32⟩
  | .local _ .vmem, ⟨4, _⟩ => ⟨S1x4x256x256, .f32⟩
  | .local _ .vmem, ⟨5, _⟩ => ⟨S1x4x256x256, .f32⟩
  | _, _ => ⟨S32x16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x9x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x9x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S32x16x16x1024_S32x18x18x1024_000_110_110_000 : S32x16x16x1024.Pads (![0, 1, 1, 0] : Fin 4 → Nat) ![0, 1, 1, 0] ![0, 0, 0, 0] S32x18x18x1024
  h_S_ : 0 < S_.numel
  slices_S32x18x18x1024_S32x16x16x1024_0_0_0_0 : S32x18x18x1024.Slices ![0, 0, 0, 0] S32x16x16x1024
  slices_S32x18x18x1024_S32x16x16x1024_0_0_1_0 : S32x18x18x1024.Slices ![0, 0, 1, 0] S32x16x16x1024
  slices_S32x18x18x1024_S32x16x16x1024_0_0_2_0 : S32x18x18x1024.Slices ![0, 0, 2, 0] S32x16x16x1024
  slices_S32x18x18x1024_S32x16x16x1024_0_1_0_0 : S32x18x18x1024.Slices ![0, 1, 0, 0] S32x16x16x1024
  slices_S32x18x18x1024_S32x16x16x1024_0_1_1_0 : S32x18x18x1024.Slices ![0, 1, 1, 0] S32x16x16x1024
  slices_S32x18x18x1024_S32x16x16x1024_0_1_2_0 : S32x18x18x1024.Slices ![0, 1, 2, 0] S32x16x16x1024
  slices_S32x18x18x1024_S32x16x16x1024_0_2_0_0 : S32x18x18x1024.Slices ![0, 2, 0, 0] S32x16x16x1024
  slices_S32x18x18x1024_S32x16x16x1024_0_2_1_0 : S32x18x18x1024.Slices ![0, 2, 1, 0] S32x16x16x1024
  slices_S32x18x18x1024_S32x16x16x1024_0_2_2_0 : S32x18x18x1024.Slices ![0, 2, 2, 0] S32x16x16x1024
  bcast_S32x16x16x1024_S32x16x16x1x1024_0_1_2_4 : S32x16x16x1024.BroadcastsInDim S32x16x16x1x1024 (![0, 1, 2, 4] : Fin 4 → Fin S32x16x16x1x1024.rank)
  concatenates_S32x16x16x1x1024_S32x16x16x1x1024_S32x16x16x1x1024_S32x16x16x1x1024_S32x16x16x1x1024_S32x16x16x1x1024_S32x16x16x1x1024_S32x16x16x1x1024_S32x16x16x1x1024_S32x16x16x9x1024_d3 : Shape.Concatenates [S32x16x16x1x1024, S32x16x16x1x1024, S32x16x16x1x1024, S32x16x16x1x1024, S32x16x16x1x1024, S32x16x16x1x1024, S32x16x16x1x1024, S32x16x16x1x1024, S32x16x16x1x1024] S32x16x16x9x1024 3
  shapeCasts_S32x16x16x9x1024_S32x16x16x9216 : S32x16x16x9x1024.ShapeCasts S32x16x16x9216
  shapeCasts_S32x16x16x9216_S32x4x256x9x256 : S32x16x16x9216.ShapeCasts S32x4x256x9x256
  inb_S1x256x9x256_S1x256x9x256_0_0_0_0 : ∀ a, (![0, 0, 0, 0] : Fin 4 → Nat) a + S1x256x9x256.size a ≤ S1x256x9x256.size a
  h_S1x256x9x256 : 0 < S1x256x9x256.numel
  shapeCasts_S1x256x9x256_S256x9x256 : S1x256x9x256.ShapeCasts S256x9x256
  inb_S1x4x256x9x256_S1x1x256x9x256_0_0_0_0_0 : ∀ a, (![0, 0, 0, 0, 0] : Fin 5 → Nat) a + S1x1x256x9x256.size a ≤ S1x4x256x9x256.size a
  h_S1x1x256x9x256 : 0 < S1x1x256x9x256.numel
  shapeCasts_S1x1x256x9x256_S256x9x256 : S1x1x256x9x256.ShapeCasts S256x9x256
  reduces_S256x9x256_S256x256 : S256x9x256.Reduces [1] S256x256
  inb_S1x4x256x256_S1x1x256x256_0_0_0_0 : ∀ a, (![0, 0, 0, 0] : Fin 4 → Nat) a + S1x1x256x256.size a ≤ S1x4x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  inb_S1x4x256x9x256_S1x1x256x9x256_0_1_0_0_0 : ∀ a, (![0, 1, 0, 0, 0] : Fin 5 → Nat) a + S1x1x256x9x256.size a ≤ S1x4x256x9x256.size a
  inb_S1x4x256x256_S1x1x256x256_0_1_0_0 : ∀ a, (![0, 1, 0, 0] : Fin 4 → Nat) a + S1x1x256x256.size a ≤ S1x4x256x256.size a
  inb_S1x4x256x9x256_S1x1x256x9x256_0_2_0_0_0 : ∀ a, (![0, 2, 0, 0, 0] : Fin 5 → Nat) a + S1x1x256x9x256.size a ≤ S1x4x256x9x256.size a
  inb_S1x4x256x256_S1x1x256x256_0_2_0_0 : ∀ a, (![0, 2, 0, 0] : Fin 4 → Nat) a + S1x1x256x256.size a ≤ S1x4x256x256.size a
  inb_S1x4x256x9x256_S1x1x256x9x256_0_3_0_0_0 : ∀ a, (![0, 3, 0, 0, 0] : Fin 5 → Nat) a + S1x1x256x9x256.size a ≤ S1x4x256x9x256.size a
  inb_S1x4x256x256_S1x1x256x256_0_3_0_0 : ∀ a, (![0, 3, 0, 0] : Fin 4 → Nat) a + S1x1x256x256.size a ≤ S1x4x256x256.size a
  shapeCasts_S32x4x256x256_S32x1024x16x16 : S32x4x256x256.ShapeCasts S32x1024x16x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x9x256.size a ≤ S32x256x9x256.size a
  hwx0_0 : ∀ i : grid0.Coords, EltTy.bits .f32 = 32 ∨ (Rect.block (s := S32x256x9x256) S1x256x9x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x9x256.size a ≤ S32x4x256x9x256.size a
  hwx0_1 : ∀ i : grid0.Coords, EltTy.bits .f32 = 32 ∨ (Rect.block (s := S32x4x256x9x256) S1x4x256x9x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256x256.size a ≤ S32x4x256x256.size a
  hwx0_2 : ∀ i : grid0.Coords, EltTy.bits .f32 = 32 ∨ (Rect.block (s := S32x4x256x256) S1x4x256x256.size (cc0_transform_2 i) (hinb0_2 i)).WholeWords (EltTy.packing .f32)

variable [Facts₀]

abbrev win0_0 : Pipeline.Window sig grid0 :=
  Pipeline.Window.ofSpec (Memref.whole main_arg1) S1x256x9x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x4x256x9x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x4x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x16x16x1024 : Shape := ⟨4, ![32, 16, 16, 1024]⟩
abbrev S32x256x9x256 : Shape := ⟨4, ![32, 256, 9, 256]⟩
abbrev S_ : Shape := ⟨0, ![]⟩
abbrev S32x18x18x1024 : Shape := ⟨4, ![32, 18, 18, 1024]⟩
abbrev S32x16x16x1x1024 : Shape := ⟨5, ![32, 16, 16, 1, 1024]⟩
abbrev S32x16x16x9x1024 : Shape := ⟨5, ![32, 16, 16, 9, 1024]⟩
abbrev S32x16x16x9216 : Shape := ⟨4, ![32, 16, 16, 9216]⟩
abbrev S32x4x256x9x256 : Shape := ⟨5, ![32, 4, 256, 9, 256]⟩
abbrev S32x1x256x9x256 : Shape := ⟨5, ![32, 1, 256, 9, 256]⟩
abbrev S32x4x256x256 : Shape := ⟨4, ![32, 4, 256, 256]⟩
abbrev S32x1024x16x16 : Shape := ⟨4, ![32, 1024, 16, 16]⟩

abbrev nBuf : Space → Nat
  | .hbm => 32
  | .vmem => 0
  | .smem => 0
  | _ => 0

abbrev bufTy : (tb : Table) → Fin (tcTables nBuf tb) → BufTy
  | .hbm, ⟨0, _⟩ => ⟨S32x16x16x1024, .f32⟩
  | .hbm, ⟨1, _⟩ => ⟨S32x256x9x256, .f32⟩
  | .hbm, ⟨2, _⟩ => ⟨S_, .i32⟩
  | .hbm, ⟨3, _⟩ => ⟨S_, .f32⟩
  | .hbm, ⟨4, _⟩ => ⟨S32x18x18x1024, .f32⟩
  | .hbm, ⟨5, _⟩ => ⟨S32x16x16x1024, .f32⟩
  | .hbm, ⟨6, _⟩ => ⟨S32x16x16x1024, .f32⟩
  | .hbm, ⟨7, _⟩ => ⟨S32x16x16x1024, .f32⟩
  | .hbm, ⟨8, _⟩ => ⟨S32x16x16x1024, .f32⟩
  | .hbm, ⟨9, _⟩ => ⟨S32x16x16x1024, .f32⟩
  | .hbm, ⟨10, _⟩ => ⟨S32x16x16x1024, .f32⟩
  | .hbm, ⟨11, _⟩ => ⟨S32x16x16x1024, .f32⟩
  | .hbm, ⟨12, _⟩ => ⟨S32x16x16x1024, .f32⟩
  | .hbm, ⟨13, _⟩ => ⟨S32x16x16x1024, .f32⟩
  | .hbm, ⟨14, _⟩ => ⟨S32x16x16x1x1024, .f32⟩
  | .hbm, ⟨15, _⟩ => ⟨S32x16x16x1x1024, .f32⟩
  | .hbm, ⟨16, _⟩ => ⟨S32x16x16x1x1024, .f32⟩
  | .hbm, ⟨17, _⟩ => ⟨S32x16x16x1x1024, .f32⟩
  | .hbm, ⟨18, _⟩ => ⟨S32x16x16x1x1024, .f32⟩
  | .hbm, ⟨19, _⟩ => ⟨S32x16x16x1x1024, .f32⟩
  | .hbm, ⟨20, _⟩ => ⟨S32x16x16x1x1024, .f32⟩
  | .hbm, ⟨21, _⟩ => ⟨S32x16x16x1x1024, .f32⟩
  | .hbm, ⟨22, _⟩ => ⟨S32x16x16x1x1024, .f32⟩
  | .hbm, ⟨23, _⟩ => ⟨S32x16x16x9x1024, .f32⟩
  | .hbm, ⟨24, _⟩ => ⟨S32x16x16x9216, .f32⟩
  | .hbm, ⟨25, _⟩ => ⟨S32x4x256x9x256, .f32⟩
  | .hbm, ⟨26, _⟩ => ⟨S32x1x256x9x256, .f32⟩
  | .hbm, ⟨27, _⟩ => ⟨S32x4x256x9x256, .f32⟩
  | .hbm, ⟨28, _⟩ => ⟨S32x4x256x9x256, .f32⟩
  | .hbm, ⟨29, _⟩ => ⟨S_, .f32⟩
  | .hbm, ⟨30, _⟩ => ⟨S32x4x256x256, .f32⟩
  | .hbm, ⟨31, _⟩ => ⟨S32x1024x16x16, .f32⟩
  | _, _ => ⟨S32x16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]

class Facts₀ : Prop where
  pads_S32x16x16x1024_S32x18x18x1024_000_110_110_000 : S32x16x16x1024.Pads (![0, 1, 1, 0] : Fin 4 → Nat) ![0, 1, 1, 0] ![0, 0, 0, 0] S32x18x18x1024
  h_S_ : 0 < S_.numel
  slices_S32x18x18x1024_S32x16x16x1024_0_0_0_0 : S32x18x18x1024.Slices ![0, 0, 0, 0] S32x16x16x1024
  slices_S32x18x18x1024_S32x16x16x1024_0_0_1_0 : S32x18x18x1024.Slices ![0, 0, 1, 0] S32x16x16x1024
  slices_S32x18x18x1024_S32x16x16x1024_0_0_2_0 : S32x18x18x1024.Slices ![0, 0, 2, 0] S32x16x16x1024
  slices_S32x18x18x1024_S32x16x16x1024_0_1_0_0 : S32x18x18x1024.Slices ![0, 1, 0, 0] S32x16x16x1024
  slices_S32x18x18x1024_S32x16x16x1024_0_1_1_0 : S32x18x18x1024.Slices ![0, 1, 1, 0] S32x16x16x1024
  slices_S32x18x18x1024_S32x16x16x1024_0_1_2_0 : S32x18x18x1024.Slices ![0, 1, 2, 0] S32x16x16x1024
  slices_S32x18x18x1024_S32x16x16x1024_0_2_0_0 : S32x18x18x1024.Slices ![0, 2, 0, 0] S32x16x16x1024
  slices_S32x18x18x1024_S32x16x16x1024_0_2_1_0 : S32x18x18x1024.Slices ![0, 2, 1, 0] S32x16x16x1024
  slices_S32x18x18x1024_S32x16x16x1024_0_2_2_0 : S32x18x18x1024.Slices ![0, 2, 2, 0] S32x16x16x1024
  bcast_S32x16x16x1024_S32x16x16x1x1024_0_1_2_4 : S32x16x16x1024.BroadcastsInDim S32x16x16x1x1024 (![0, 1, 2, 4] : Fin 4 → Fin S32x16x16x1x1024.rank)
  concatenates_S32x16x16x1x1024_S32x16x16x1x1024_S32x16x16x1x1024_S32x16x16x1x1024_S32x16x16x1x1024_S32x16x16x1x1024_S32x16x16x1x1024_S32x16x16x1x1024_S32x16x16x1x1024_S32x16x16x9x1024_d3 : Shape.Concatenates [S32x16x16x1x1024, S32x16x16x1x1024, S32x16x16x1x1024, S32x16x16x1x1024, S32x16x16x1x1024, S32x16x16x1x1024, S32x16x16x1x1024, S32x16x16x1x1024, S32x16x16x1x1024] S32x16x16x9x1024 3
  shapeCasts_S32x16x16x9x1024_S32x16x16x9216 : S32x16x16x9x1024.ShapeCasts S32x16x16x9216
  shapeCasts_S32x16x16x9216_S32x4x256x9x256 : S32x16x16x9216.ShapeCasts S32x4x256x9x256
  bcast_S32x256x9x256_S32x1x256x9x256_0_2_3_4 : S32x256x9x256.BroadcastsInDim S32x1x256x9x256 (![0, 2, 3, 4] : Fin 4 → Fin S32x1x256x9x256.rank)
  bcast_S32x1x256x9x256_S32x4x256x9x256_0_1_2_3_4 : S32x1x256x9x256.BroadcastsInDim S32x4x256x9x256 (![0, 1, 2, 3, 4] : Fin 5 → Fin S32x4x256x9x256.rank)
  reducesTo_S32x4x256x9x256_S32x4x256x256_d3 : S32x4x256x9x256.ReducesTo [3] S32x4x256x256
  shapeCasts_S32x4x256x256_S32x1024x16x16 : S32x4x256x256.ShapeCasts S32x1024x16x16

variable [Facts₀]

class Facts : Prop extends Facts₀ where

variable [Facts]
-- ==== Proof.KernelAround.lean ====
/-
  @main around its one region, for the aggregation kernel's program as printed (read at the word level): the host lines before the region (the zero
  constant, the padding call, nine shifted slices, nine unit-axis broadcasts, their concatenation along the tap
  axis and two reshapes), the region, and the one reshape after it.

  What the region finds in core `c`'s buffers is the fold `V0` of the lines before it over the launch memory; the
  two argument arrays are written by no line, so the region finds them, and the program ends with them, as launched.
  A window's block at grid point `t` (`iblk`) is the rectangle of its array the index map names there. From any
  proof data whose arrays are those contents, a run to the library's frame post is the frame claim's post.
-/
import proofs.«165946_j33320356282418_1_alg».proof.Proof.Gen.Kernel.Launch
import proofs.«165946_j33320356282418_1_alg».proof.Proof.Gen.Kernel.Skeleton
import proofs.«165946_j33320356282418_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffer contents when the region is entered: the host lines before it, folded over the launch memory. -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its lines before the region, the region, and the line after it: it reduces to the region continued by
    the later line, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The line after the region -/

/-- It touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are written by no host line -/

/-- No line before the region writes reference `r` when `r` is none of their twenty-four result buffers. -/
theorem V_kept (c : Dev nD) (r : Ref sig .tc)
    (hr : r ∉ ([main_c, main_call0_v0, main_v0, main_v1, main_v2, main_v3, main_v4, main_v5, main_v6, main_v7, main_v8, main_v9,
      main_v10, main_v11, main_v12, main_v13, main_v14, main_v15, main_v16, main_v17, main_v18, main_v19, main_v20, main_v21] : List (Ref sig .tc))) :
    V m c r = m ((c : Thread nD τ).loc r) :=
  StableHlo.after_of_writes_sub (τ := τ) _ _ (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes,
      StableHlo.binary_writes, StableHlo.reshape_writes, StableHlo.nary_writes, Finset.singleton_subset_iff, List.mem_toFinset, List.mem_map]
    repeat' apply And.intro
    all_goals exact ⟨_, by decide, rfl⟩) hr

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)

/-- The line after the region writes `main_v23` only, and the region's write-back goes to the pipeline's arrays:
    `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights' current staging buffer holds their block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the unfolded patches' window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the
    two argument arrays — the input image by the post's clause for bypassing buffers, the weights (a staged input,
    which no write-back touches) by the clause for the pipeline's arrays — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).1 0).trans (((dats 0 c).arrAt_in 0 rfl _).trans ((hA c 0).trans (V_main_arg1 m c)))⟩) h

end Cert.Kernel.Agg

end
-- ==== Proof.KernelBody.lean ====
/-
  The aggregation kernel's body at one grid point.

  The body loads the weights' block `w : [1,256,9,256]` once, and for each of the four channel groups `a` loads the
  patches' slab `x[0,a] : [256,9,256]`, multiplies the two elementwise, sums the nine taps (axis 1) and stores the
  `[256,256]` result into slab `a` of the output block `[1,4,256,256]`. (Before each store it also loads the slab it
  is about to overwrite; that value is not used.) The four stores tile the output block along its group axis, so
  what the block holds afterwards is a function of the two input blocks alone: the four payloads laid side by side.
-/
import proofs.«165946_j33320356282418_1_alg».proof.Proof.KernelAround

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's accesses -/

/-- The whole weights block. -/
abbrev rW : Rect S1x256x9x256 := Rect.unit (s := S1x256x9x256) ![0, 0, 0, 0] S1x256x9x256.size inb_S1x256x9x256_S1x256x9x256_0_0_0_0
/-- Slab `a` of the patches' block, one per channel group. -/
abbrev rX0 : Rect S1x4x256x9x256 := Rect.unit (s := S1x4x256x9x256) ![0, 0, 0, 0, 0] S1x1x256x9x256.size inb_S1x4x256x9x256_S1x1x256x9x256_0_0_0_0_0
abbrev rX1 : Rect S1x4x256x9x256 := Rect.unit (s := S1x4x256x9x256) ![0, 1, 0, 0, 0] S1x1x256x9x256.size inb_S1x4x256x9x256_S1x1x256x9x256_0_1_0_0_0
abbrev rX2 : Rect S1x4x256x9x256 := Rect.unit (s := S1x4x256x9x256) ![0, 2, 0, 0, 0] S1x1x256x9x256.size inb_S1x4x256x9x256_S1x1x256x9x256_0_2_0_0_0
abbrev rX3 : Rect S1x4x256x9x256 := Rect.unit (s := S1x4x256x9x256) ![0, 3, 0, 0, 0] S1x1x256x9x256.size inb_S1x4x256x9x256_S1x1x256x9x256_0_3_0_0_0
/-- Slab `a` of the output block. -/
abbrev rO0 : Rect S1x4x256x256 := Rect.unit (s := S1x4x256x256) ![0, 0, 0, 0] S1x1x256x256.size inb_S1x4x256x256_S1x1x256x256_0_0_0_0
abbrev rO1 : Rect S1x4x256x256 := Rect.unit (s := S1x4x256x256) ![0, 1, 0, 0] S1x1x256x256.size inb_S1x4x256x256_S1x1x256x256_0_1_0_0
abbrev rO2 : Rect S1x4x256x256 := Rect.unit (s := S1x4x256x256) ![0, 2, 0, 0] S1x1x256x256.size inb_S1x4x256x256_S1x1x256x256_0_2_0_0
abbrev rO3 : Rect S1x4x256x256 := Rect.unit (s := S1x4x256x256) ![0, 3, 0, 0] S1x1x256x256.size inb_S1x4x256x256_S1x1x256x256_0_3_0_0

/-! ## What the body leaves in the output block -/

/-- The output block after the body, from the weights' block `w` and the patches' block `x`: the four stores as
    pieces, last first; slab `a` holds the tap sum of `w` times slab `a` of `x`. -/
def outBlock (w : Vec F S1x256x9x256 .f32) (x : Vec F S1x4x256x9x256 .f32) : Vec F S1x4x256x256 .f32 :=
  View.canon [⟨rO3, k0_pay1 (k0_pay2 (View.ld w rW)) (View.ld x rX3)⟩,
    ⟨rO2, k0_pay5 (View.ld w rW) (View.ld x rX2)⟩,
    ⟨rO1, k0_pay4 (View.ld w rW) (View.ld x rX1)⟩,
    ⟨rO0, k0_pay3 (View.ld w rW) (View.ld x rX0)⟩]

/-- The four slabs tile the output block, so they cover it. -/
theorem outBlock_cover (p3 p2 p1 p0 : Vec F S1x1x256x256 .f32) (y : S1x4x256x256.Idx) :
    ∃ pc ∈ ([⟨rO3, p3⟩, ⟨rO2, p2⟩, ⟨rO1, p1⟩, ⟨rO0, p0⟩] : List (View.Piece (Elt F) S1x4x256x256 .f32)), y ∈ pc.1.set :=
  View.cover_of_tiled [⟨rO3, p3⟩, ⟨rO2, p2⟩, ⟨rO1, p1⟩, ⟨rO0, p0⟩] S1x1x256x256.size (by rfl) y

/-! ## The body's triple -/

set_option maxHeartbeats 1000000 in
/-- The body on whole staging memrefs — the two inputs' at read contents `w` and `x`, the output's at anything — runs
    to the continuation holding the inputs' as they were and the output's at `outBlock w x`. -/
theorem sound_kernel (c : Dev nD) (E : Set ℕ) (i : grid0.Coords)
    (arg1 : Memref sig .tc .vmem S1x256x9x256 .f32) (harg1 : arg1.IsWhole)
    (arg2 : Memref sig .tc .vmem S1x4x256x9x256 .f32) (harg2 : arg2.IsWhole)
    (arg3 : Memref sig .tc .vmem S1x4x256x256 .f32) (harg3 : arg3.IsWhole)
    (w : Vec F S1x256x9x256 .f32) (x : Vec F S1x4x256x9x256 .f32) (K : PUnit → sProp 𝕄) :
    iprop(owns (c : Thread nD τ) arg1 fullShare w ∗ owns (c : Thread nD τ) arg2 fullShare x ∗ (∃ d, owns (c : Thread nD τ) arg3 fullShare d)
        ∗ (iprop(owns (c : Thread nD τ) arg1 fullShare w ∗ owns (c : Thread nD τ) arg2 fullShare x
            ∗ owns (c : Thread nD τ) arg3 fullShare (outBlock w x)) -∗ K ⟨⟩))
      ⊢ wp frame (wpE (defs₀ (F := F)) Variants.none c none) E (cc0__agg_kernel i arg1 harg1 arg2 harg2 arg3 harg3) K := by
  simp only [cc0__agg_kernel_eq_skeleton]; unfold cc0__agg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  exact View.read_writes_eq_canon _ _ _ (outBlock_cover _ _ _ _)

end Cert.Kernel.Agg

end
-- ==== Proof.KernelRun.lean ====
/-
  The aggregation kernel's program run to the end: the proof data of its one pipeline, the body obligation at every
  grid point, and the library's frame run around the region.

  After the body at point `t` the two input windows' buffers hold their blocks, as before it, and the output window's
  holds `outBlock` of the two input blocks; the region's invariant is the untouched rest, nothing is owed, every share
  is full. The run's post has every array of the pipeline at what the write-backs leave and every other buffer at
  what the reshape after the region leaves.
-/
import proofs.«165946_j33320356282418_1_alg».proof.Proof.KernelBody

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    the output's at `outBlock` of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

/-- The proof data's arrays are the region-entry contents (by projection, never by unfolding the fold). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by
  dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and both argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Agg

end
-- ==== Proof.KernelIdealAround.lean ====
/-
  @main around its one region, for the aggregation kernel's program: the host lines before the region (the zero
  constant, the padding call, nine shifted slices, nine unit-axis broadcasts, their concatenation along the tap
  axis and two reshapes), the region, and the one reshape after it.

  What the region finds in core `c`'s buffers is the fold `V0` of the lines before it over the launch memory; the
  two argument arrays are written by no line, so the region finds them, and the program ends with them, as launched.
  A window's block at grid point `t` (`iblk`) is the rectangle of its array the index map names there. From any
  proof data whose arrays are those contents, a run to the library's frame post is the frame claim's post.
-/
import proofs.«165946_j33320356282418_1_alg».proof.Proof.Gen.KernelIdeal.Launch
import proofs.«165946_j33320356282418_1_alg».proof.Proof.Gen.KernelIdeal.Skeleton
import proofs.«165946_j33320356282418_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffer contents when the region is entered: the host lines before it, folded over the launch memory. -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its lines before the region, the region, and the line after it: it reduces to the region continued by
    the later line, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The line after the region -/

/-- It touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are written by no host line -/

/-- No line before the region writes reference `r` when `r` is none of their twenty-four result buffers. -/
theorem V_kept (c : Dev nD) (r : Ref sig .tc)
    (hr : r ∉ ([main_c, main_call0_v0, main_v0, main_v1, main_v2, main_v3, main_v4, main_v5, main_v6, main_v7, main_v8, main_v9,
      main_v10, main_v11, main_v12, main_v13, main_v14, main_v15, main_v16, main_v17, main_v18, main_v19, main_v20, main_v21] : List (Ref sig .tc))) :
    V m c r = m ((c : Thread nD τ).loc r) :=
  StableHlo.after_of_writes_sub (τ := τ) _ _ (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes,
      StableHlo.binary_writes, StableHlo.reshape_writes, StableHlo.nary_writes, Finset.singleton_subset_iff, List.mem_toFinset, List.mem_map]
    repeat' apply And.intro
    all_goals exact ⟨_, by decide, rfl⟩) hr

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)

/-- The line after the region writes `main_v23` only, and the region's write-back goes to the pipeline's arrays:
    `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights' current staging buffer holds their block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the unfolded patches' window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the
    two argument arrays — the input image by the post's clause for bypassing buffers, the weights (a staged input,
    which no write-back touches) by the clause for the pipeline's arrays — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).1 0).trans (((dats 0 c).arrAt_in 0 rfl _).trans ((hA c 0).trans (V_main_arg1 m c)))⟩) h

end Cert.KernelIdeal.Agg

end
-- ==== Proof.KernelIdealBody.lean ====
/-
  The aggregation kernel's body at one grid point.

  The body loads the weights' block `w : [1,256,9,256]` once, and for each of the four channel groups `a` loads the
  patches' slab `x[0,a] : [256,9,256]`, multiplies the two elementwise, sums the nine taps (axis 1) and stores the
  `[256,256]` result into slab `a` of the output block `[1,4,256,256]`. (Before each store it also loads the slab it
  is about to overwrite; that value is not used.) The four stores tile the output block along its group axis, so
  what the block holds afterwards is a function of the two input blocks alone: the four payloads laid side by side.
-/
import proofs.«165946_j33320356282418_1_alg».proof.Proof.KernelIdealAround

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's accesses -/

/-- The whole weights block. -/
abbrev rW : Rect S1x256x9x256 := Rect.unit (s := S1x256x9x256) ![0, 0, 0, 0] S1x256x9x256.size inb_S1x256x9x256_S1x256x9x256_0_0_0_0
/-- Slab `a` of the patches' block, one per channel group. -/
abbrev rX0 : Rect S1x4x256x9x256 := Rect.unit (s := S1x4x256x9x256) ![0, 0, 0, 0, 0] S1x1x256x9x256.size inb_S1x4x256x9x256_S1x1x256x9x256_0_0_0_0_0
abbrev rX1 : Rect S1x4x256x9x256 := Rect.unit (s := S1x4x256x9x256) ![0, 1, 0, 0, 0] S1x1x256x9x256.size inb_S1x4x256x9x256_S1x1x256x9x256_0_1_0_0_0
abbrev rX2 : Rect S1x4x256x9x256 := Rect.unit (s := S1x4x256x9x256) ![0, 2, 0, 0, 0] S1x1x256x9x256.size inb_S1x4x256x9x256_S1x1x256x9x256_0_2_0_0_0
abbrev rX3 : Rect S1x4x256x9x256 := Rect.unit (s := S1x4x256x9x256) ![0, 3, 0, 0, 0] S1x1x256x9x256.size inb_S1x4x256x9x256_S1x1x256x9x256_0_3_0_0_0
/-- Slab `a` of the output block. -/
abbrev rO0 : Rect S1x4x256x256 := Rect.unit (s := S1x4x256x256) ![0, 0, 0, 0] S1x1x256x256.size inb_S1x4x256x256_S1x1x256x256_0_0_0_0
abbrev rO1 : Rect S1x4x256x256 := Rect.unit (s := S1x4x256x256) ![0, 1, 0, 0] S1x1x256x256.size inb_S1x4x256x256_S1x1x256x256_0_1_0_0
abbrev rO2 : Rect S1x4x256x256 := Rect.unit (s := S1x4x256x256) ![0, 2, 0, 0] S1x1x256x256.size inb_S1x4x256x256_S1x1x256x256_0_2_0_0
abbrev rO3 : Rect S1x4x256x256 := Rect.unit (s := S1x4x256x256) ![0, 3, 0, 0] S1x1x256x256.size inb_S1x4x256x256_S1x1x256x256_0_3_0_0

/-! ## What the body leaves in the output block -/

/-- The output block after the body, from the weights' block `w` and the patches' block `x`: the four stores as
    pieces, last first; slab `a` holds the tap sum of `w` times slab `a` of `x`. -/
def outBlock (w : Vec F S1x256x9x256 .f32) (x : Vec F S1x4x256x9x256 .f32) : Vec F S1x4x256x256 .f32 :=
  View.canon [⟨rO3, k0_pay1 (k0_pay2 (View.ld w rW)) (View.ld x rX3)⟩,
    ⟨rO2, k0_pay5 (View.ld w rW) (View.ld x rX2)⟩,
    ⟨rO1, k0_pay4 (View.ld w rW) (View.ld x rX1)⟩,
    ⟨rO0, k0_pay3 (View.ld w rW) (View.ld x rX0)⟩]

/-- The four slabs tile the output block, so they cover it. -/
theorem outBlock_cover (p3 p2 p1 p0 : Vec F S1x1x256x256 .f32) (y : S1x4x256x256.Idx) :
    ∃ pc ∈ ([⟨rO3, p3⟩, ⟨rO2, p2⟩, ⟨rO1, p1⟩, ⟨rO0, p0⟩] : List (View.Piece (Elt F) S1x4x256x256 .f32)), y ∈ pc.1.set :=
  View.cover_of_tiled [⟨rO3, p3⟩, ⟨rO2, p2⟩, ⟨rO1, p1⟩, ⟨rO0, p0⟩] S1x1x256x256.size (by rfl) y

/-! ## The body's triple -/

set_option maxHeartbeats 1000000 in
/-- The body on whole staging memrefs — the two inputs' at read contents `w` and `x`, the output's at anything — runs
    to the continuation holding the inputs' as they were and the output's at `outBlock w x`. -/
theorem sound_kernel (c : Dev nD) (E : Set ℕ) (i : grid0.Coords)
    (arg1 : Memref sig .tc .vmem S1x256x9x256 .f32) (harg1 : arg1.IsWhole)
    (arg2 : Memref sig .tc .vmem S1x4x256x9x256 .f32) (harg2 : arg2.IsWhole)
    (arg3 : Memref sig .tc .vmem S1x4x256x256 .f32) (harg3 : arg3.IsWhole)
    (w : Vec F S1x256x9x256 .f32) (x : Vec F S1x4x256x9x256 .f32) (K : PUnit → sProp 𝕄) :
    iprop(owns (c : Thread nD τ) arg1 fullShare w ∗ owns (c : Thread nD τ) arg2 fullShare x ∗ (∃ d, owns (c : Thread nD τ) arg3 fullShare d)
        ∗ (iprop(owns (c : Thread nD τ) arg1 fullShare w ∗ owns (c : Thread nD τ) arg2 fullShare x
            ∗ owns (c : Thread nD τ) arg3 fullShare (outBlock w x)) -∗ K ⟨⟩))
      ⊢ wp frame (wpE (defs₀ (F := F)) Variants.none c none) E (cc0__agg_kernel i arg1 harg1 arg2 harg2 arg3 harg3) K := by
  simp only [cc0__agg_kernel_eq_skeleton]; unfold cc0__agg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  exact View.read_writes_eq_canon _ _ _ (outBlock_cover _ _ _ _)

end Cert.KernelIdeal.Agg

end
-- ==== Proof.KernelIdealRun.lean ====
/-
  The aggregation kernel's program run to the end: the proof data of its one pipeline, the body obligation at every
  grid point, and the library's frame run around the region.

  After the body at point `t` the two input windows' buffers hold their blocks, as before it, and the output window's
  holds `outBlock` of the two input blocks; the region's invariant is the untouched rest, nothing is owed, every share
  is full. The run's post has every array of the pipeline at what the write-backs leave and every other buffer at
  what the reshape after the region leaves.
-/
import proofs.«165946_j33320356282418_1_alg».proof.Proof.KernelIdealBody

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    the output's at `outBlock` of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

/-- The proof data's arrays are the region-entry contents (by projection, never by unfolding the fold). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by
  dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and both argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Agg

end
-- ==== Proof.AggSpec.lean ====
/-
  What both programs compute, as one function of the two argument arrays, on the extended reals.

  `patches x` is the 3×3 unfold of the image `x : [32,16,16,1024]` that both programs build on the host before anything
  else: pad one zero row and column on each spatial side, take the nine shifted [32,16,16,1024] slices, give each a
  unit tap axis and concatenate them along it to [32,16,16,9,1024], then re-read the same row-major sequence first as
  [32,16,16,9216] and then as [32,4,256,9,256]. Both programs apply exactly these operations, so neither proof ever
  looks inside: it is carried as one function.

  `agg x w` at (n, a, c, l) is the sum over the nine taps `p` of `w[n,c,p,l] · patches x [n,a,c,p,l]`, and `result x w`
  re-reads `agg x w : [32,4,256,256]` in row-major order as [32,1024,16,16].
-/
import proofs.«165946_j33320356282418_1_alg».proof.KernelIdeal
import Idealize.ShloMosaic.PureOps.Ideal
import Idealize.ShloMosaic.Lib.ValueIdx

noncomputable section

namespace Cert.AggSpec

open Idealize.ShloMosaic Idealize.ShloMosaic.ValueIdx
open Cert.KernelIdeal Cert.KernelIdeal.Facts₀

variable [Cert.KernelIdeal.Facts]

/-- The image padded by one zero on each spatial side. -/
def padded (x : FVec Ideal S32x16x16x1024 .f32) : FVec Ideal S32x18x18x1024 .f32 :=
  pad S32x18x18x1024 ![0, 1, 1, 0] ![0, 1, 1, 0] ![0, 0, 0, 0] x (sitofp .f32 (constantI S_ 32 0#32))
    pads_S32x16x16x1024_S32x18x18x1024_000_110_110_000 h_S_

/-- One shifted slice of the padded image, with a unit tap axis. -/
def tap (x : FVec Ideal S32x16x16x1024 .f32) (off : Fin 4 → Nat) (h : S32x18x18x1024.Slices off S32x16x16x1024) :
    FVec Ideal S32x16x16x1x1024 .f32 :=
  broadcastInDim S32x16x16x1x1024 ![0, 1, 2, 4] bcast_S32x16x16x1024_S32x16x16x1x1024_0_1_2_4
    (extractStridedSlice S32x16x16x1024 off (padded x) h)

/-- The nine taps side by side, re-read as [32,4,256,9,256]. -/
def patches (x : FVec Ideal S32x16x16x1024 .f32) : FVec Ideal S32x4x256x9x256 .f32 :=
  shapeCast S32x4x256x9x256
    (shapeCast S32x16x16x9216
      (concatenate S32x16x16x9x1024 3
        [⟨S32x16x16x1x1024, tap x ![0, 0, 0, 0] slices_S32x18x18x1024_S32x16x16x1024_0_0_0_0⟩,
         ⟨S32x16x16x1x1024, tap x ![0, 0, 1, 0] slices_S32x18x18x1024_S32x16x16x1024_0_0_1_0⟩,
         ⟨S32x16x16x1x1024, tap x ![0, 0, 2, 0] slices_S32x18x18x1024_S32x16x16x1024_0_0_2_0⟩,
         ⟨S32x16x16x1x1024, tap x ![0, 1, 0, 0] slices_S32x18x18x1024_S32x16x16x1024_0_1_0_0⟩,
         ⟨S32x16x16x1x1024, tap x ![0, 1, 1, 0] slices_S32x18x18x1024_S32x16x16x1024_0_1_1_0⟩,
         ⟨S32x16x16x1x1024, tap x ![0, 1, 2, 0] slices_S32x18x18x1024_S32x16x16x1024_0_1_2_0⟩,
         ⟨S32x16x16x1x1024, tap x ![0, 2, 0, 0] slices_S32x18x18x1024_S32x16x16x1024_0_2_0_0⟩,
         ⟨S32x16x16x1x1024, tap x ![0, 2, 1, 0] slices_S32x18x18x1024_S32x16x16x1024_0_2_1_0⟩,
         ⟨S32x16x16x1x1024, tap x ![0, 2, 2, 0] slices_S32x18x18x1024_S32x16x16x1024_0_2_2_0⟩]
        concatenates_S32x16x16x1x1024_S32x16x16x1x1024_S32x16x16x1x1024_S32x16x16x1x1024_S32x16x16x1x1024_S32x16x16x1x1024_S32x16x16x1x1024_S32x16x16x1x1024_S32x16x16x1x1024_S32x16x16x9x1024_d3)
      shapeCasts_S32x16x16x9x1024_S32x16x16x9216)
    shapeCasts_S32x16x16x9216_S32x4x256x9x256

/-- The tap sum at batch `n`, channel group `a`, channel `c`, pixel `l`, over any patches array `o`. -/
def aggAt (o : FVec Ideal S32x4x256x9x256 .f32) (w : FVec Ideal S32x256x9x256 .f32)
    (n : Fin 32) (a : Fin 4) (c : Fin 256) (l : Fin 256) : EReal :=
  ∑ p : Fin 9, w (ix4 n c p l) * o (ix5 n a c p l)

/-- The aggregation over a patches array, as an array [32,4,256,256]. -/
def aggOf (o : FVec Ideal S32x4x256x9x256 .f32) (w : FVec Ideal S32x256x9x256 .f32) : FVec Ideal S32x4x256x256 .f32 :=
  fun i => aggAt o w (i 0) (i 1) (i 2) (i 3)

/-- The aggregation of image `x` by weights `w`. -/
def agg (x : FVec Ideal S32x16x16x1024 .f32) (w : FVec Ideal S32x256x9x256 .f32) : FVec Ideal S32x4x256x256 .f32 :=
  aggOf (patches x) w

/-- Both programs' result: the aggregation re-read as [32,1024,16,16]. -/
def result (x : FVec Ideal S32x16x16x1024 .f32) (w : FVec Ideal S32x256x9x256 .f32) : FVec Ideal S32x1024x16x16 .f32 :=
  shapeCast S32x1024x16x16 (agg x w) shapeCasts_S32x4x256x256_S32x1024x16x16

end Cert.AggSpec

end
-- ==== Proof.KernelIdealValue.lean ====
/-
  What the idealized aggregation program leaves in its result buffer, on the extended reals.

  The patches' array the region finds is `patches` of the launched image (the host lines before the region are exactly
  that function). At grid point `t` the three windows' blocks are batch row `t` of their arrays, so — given that the
  output block holds, at (0, a, c, l), the nine-tap sum of the weights' block times the patches' block — what point
  `t` writes back is batch row `t` of `aggOf` of the two arrays. The thirty-two rows tile the result array, which
  therefore ends at `agg` of the launched image and weights; the reshape after the region makes it `result`.
-/
import proofs.«165946_j33320356282418_1_alg».proof.Proof.KernelIdealRun
import proofs.«165946_j33320356282418_1_alg».proof.Proof.AggSpec
import Idealize.ShloMosaic.Lib.Pipeline.Value
import Idealize.ShloMosaic.Lib.ValueIdx
import Idealize.ShloMosaic.Lib.StableHlo.Run

set_option maxRecDepth 16384

noncomputable section

namespace Cert.KernelIdeal.Agg

open Idealize.ShloMosaic Idealize.ShloMosaic.TcCoe Idealize.ShloMosaic.ValueIdx
open Idealize.SL Idealize.SL.Sem
open Idealize.ShloMosaic.Pipeline (Dat Cfg Window)
open Cert.KernelIdeal.Gen Cert.AggSpec

/-- The output block at (0, a, c, l) is the nine-tap sum of the weights' block times slab `a` of the patches' block. -/
def BlockSum : Prop :=
  ∀ (w : Vec Ideal S1x256x9x256 .f32) (x : Vec Ideal S1x4x256x9x256 .f32) (a : Fin 4) (c l : Fin 256),
    outBlock (F := Ideal) w x (ix4 (0 : Fin 1) a c l) = ∑ p : Fin 9, w (ix4 (0 : Fin 1) c p l) * x (ix5 (0 : Fin 1) a c p l)

variable (m : (ℓ : Loc nD τ sig) → Buf (Elt Ideal) ℓ) (ρ : Dev nD → PrngReg)

/-! ## The patches' array as the region finds it -/

/-- The host lines before the region compute `patches` of the launched image into the patches' array. -/
theorem V_main_v21 (c : Dev nD) :
    (V (F := Ideal) m c main_v21 : S32x4x256x9x256.Idx → EReal) = patches (m ((c : Thread nD τ).loc main_arg0)) := by
  dsimp only [V, V0]
  simp only [hostOps0, hostOps0_1, hostOps0_2, List.flatten_cons, List.flatten_nil, List.append_nil, List.cons_append,
    List.nil_append]
  after_results
  rfl

/-! ## The windows' blocks are batch rows -/

/-- The printed index maps, decided over the grid: at point `t` every window's block index is `t` on the batch axis
    and zero on the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 5) = t.val ∧ win0_1.index t (1 : Fin 5) = 0 ∧ win0_1.index t (2 : Fin 5) = 0
      ∧ win0_1.index t (3 : Fin 5) = 0 ∧ win0_1.index t (4 : Fin 5) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The block-level statement, for blocks that are batch row `n` of whole arrays `Warr` and `O`: the output block at
    (0, a, c, l) is the tap sum of the arrays at row `n`. -/
theorem outBlock_row (hblock : BlockSum) (Warr : FVec Ideal S32x256x9x256 .f32) (O : FVec Ideal S32x4x256x9x256 .f32)
    (w : Vec Ideal S1x256x9x256 .f32) (x : Vec Ideal S1x4x256x9x256 .f32) (n : Fin 32)
    (hw : ∀ (c : Fin 256) (p : Fin 9) (l : Fin 256), w (ix4 (0 : Fin 1) c p l) = Warr (ix4 n c p l))
    (hx : ∀ (a : Fin 4) (c : Fin 256) (p : Fin 9) (l : Fin 256), x (ix5 (0 : Fin 1) a c p l) = O (ix5 n a c p l))
    (a : Fin 4) (cc l : Fin 256) : outBlock (F := Ideal) w x (ix4 (0 : Fin 1) a cc l) = aggAt O Warr n a cc l := by
  refine (hblock w x a cc l).trans ?_
  unfold aggAt
  exact Finset.sum_congr rfl fun p _ => by rw [hw, hx]

/-- The per-point statement over ANY contents `VV` of the core's buffers: the output block computed from the
    weights' and the patches' blocks at point `t` is batch row `t` of the tap sum of the two arrays. -/
theorem flushed_core (hblock : BlockSum) (c : Dev nD) (VV : (b : Ref sig .tc) → Buf (Elt Ideal) ((c : Thread nD τ).loc b))
    (t : Fin cfg0.N) :
    (cfg0.win 2).cut (grid0.coords t)
        (outBlock (F := Ideal) (((cfg0.win 0).blk t).view.read (Elt Ideal) (VV (Pipeline.arrRef spec0 0)))
          (((cfg0.win 1).blk t).view.read (Elt Ideal) (VV (Pipeline.arrRef spec0 1))))
      = ((cfg0.win 2).blk t).view.read (Elt Ideal) (aggOf (VV main_v21) (VV main_arg1)) := by
  obtain ⟨a0, a1, a2, a3, b0, b1, b2, b3, b4, o0, o1, o2, o3⟩ := idx_facts t
  have ht : t.val < 32 := lt_of_lt_of_eq t.isLt (show cfg0.N = 32 from N_0)
  funext j
  obtain ⟨a, cc, l, rfl⟩ : ∃ (a : Fin 4) (cc : Fin 256) (l : Fin 256), j = ix4 (0 : Fin 1) a cc l :=
    ⟨j 1, j 2, j 3, by
      funext d
      match d with
      | ⟨0, _⟩ => exact Fin.ext (by show (j 0).val = 0; have h : (j 0).val < 1 := (j 0).isLt; omega)
      | ⟨1, _⟩ => rfl
      | ⟨2, _⟩ => rfl
      | ⟨3, _⟩ => rfl⟩
  show outBlock (F := Ideal) (((cfg0.win 0).blk t).view.read (Elt Ideal) (VV (Pipeline.arrRef spec0 0)))
      (((cfg0.win 1).blk t).view.read (Elt Ideal) (VV (Pipeline.arrRef spec0 1))) (ix4 (0 : Fin 1) a cc l)
    = aggOf (VV main_v21) (VV main_arg1) (((cfg0.win 2).blk t).view.emb (ix4 (0 : Fin 1) a cc l))
  refine (outBlock_row hblock (VV main_arg1) (VV main_v21) _ _ ⟨t.val, ht⟩ ?_ ?_ a cc l).trans ?_
  · intro k p q
    show VV main_arg1 (((cfg0.win 0).blk t).view.emb (ix4 (0 : Fin 1) k p q)) = VV main_arg1 (ix4 (⟨t.val, ht⟩ : Fin 32) k p q)
    have h : ((cfg0.win 0).blk t).view.emb (ix4 (0 : Fin 1) k p q) = ix4 (⟨t.val, ht⟩ : Fin 32) k p q := by
      funext d; apply Fin.ext
      match d with
      | ⟨0, _⟩ => show win0_0.index t (0 : Fin 4) * 1 + 1 * 0 = t.val; omega
      | ⟨1, _⟩ => show win0_0.index t (1 : Fin 4) * 256 + 1 * k.val = k.val; omega
      | ⟨2, _⟩ => show win0_0.index t (2 : Fin 4) * 9 + 1 * p.val = p.val; omega
      | ⟨3, _⟩ => show win0_0.index t (3 : Fin 4) * 256 + 1 * q.val = q.val; omega
    rw [h]
  · intro g k p q
    show VV main_v21 (((cfg0.win 1).blk t).view.emb (ix5 (0 : Fin 1) g k p q)) = VV main_v21 (ix5 (⟨t.val, ht⟩ : Fin 32) g k p q)
    have h : ((cfg0.win 1).blk t).view.emb (ix5 (0 : Fin 1) g k p q) = ix5 (⟨t.val, ht⟩ : Fin 32) g k p q := by
      funext d; apply Fin.ext
      match d with
      | ⟨0, _⟩ => show win0_1.index t (0 : Fin 5) * 1 + 1 * 0 = t.val; omega
      | ⟨1, _⟩ => show win0_1.index t (1 : Fin 5) * 4 + 1 * g.val = g.val; omega
      | ⟨2, _⟩ => show win0_1.index t (2 : Fin 5) * 256 + 1 * k.val = k.val; omega
      | ⟨3, _⟩ => show win0_1.index t (3 : Fin 5) * 9 + 1 * p.val = p.val; omega
      | ⟨4, _⟩ => show win0_1.index t (4 : Fin 5) * 256 + 1 * q.val = q.val; omega
    rw [h]
  · have h : ((cfg0.win 2).blk t).view.emb (ix4 (0 : Fin 1) a cc l) = ix4 (⟨t.val, ht⟩ : Fin 32) a cc l := by
      funext d; apply Fin.ext
      match d with
      | ⟨0, _⟩ => show win0_2.index t (0 : Fin 4) * 1 + 1 * 0 = t.val; omega
      | ⟨1, _⟩ => show win0_2.index t (1 : Fin 4) * 4 + 1 * a.val = a.val; omega
      | ⟨2, _⟩ => show win0_2.index t (2 : Fin 4) * 256 + 1 * cc.val = cc.val; omega
      | ⟨3, _⟩ => show win0_2.index t (3 : Fin 4) * 256 + 1 * l.val = l.val; omega
    rw [h]
    rfl

/-- WHAT POINT `t` WRITES BACK is batch row `t` of the tap sum of the arrays the region finds (the per-point statement
    at the region-entry contents, which are never opened). -/
theorem flushed_eq (hblock : BlockSum) (c : Dev nD) (t : Fin cfg0.N) :
    (dats m 0 c).flushed 2 t
      = ((cfg0.win 2).blk t).view.read (Elt Ideal) (aggOf (V m c main_v21) (V m c main_arg1)) :=
  ((congrArg ((cfg0.win 2).cut (grid0.coords t)) (after0_2 m c t)).trans (flushed_core hblock c (V m c) t) :
    (cfg0.win 2).cut (grid0.coords t) ((dats m 0 c).after 2 t) = _)

/-! ## The thirty-two rows tile the result array -/

/-- An index of the result array is in point `t`'s block iff each coordinate is in the block's range on its axis. -/
theorem mem_blk (t : Fin cfg0.N) (i : S32x4x256x256.Idx) :
    i ∈ ((cfg0.win 2).blk t).view.set ↔ ∀ a : Fin 4, win0_2.index t a * S1x4x256x256.size a ≤ (i a).val ∧ (i a).val < win0_2.index t a * S1x4x256x256.size a + S1x4x256x256.size a := by
  show i ∈ ((View.whole main_v22).slice (win0_2.rect t)).set ↔ _
  rw [View.set_slice_whole, Rect.mem_set_unit]
  exact Iff.rfl

/-- Every index of the result array lies in the block of the point its batch coordinate names. -/
theorem cover (i : S32x4x256x256.Idx) : ∃ t : Fin cfg0.N, (cfg0.win 2).flush t = true ∧ i ∈ ((cfg0.win 2).blk t).view.set := by
  have hi0 : (i 0).val < 32 := (i 0).isLt
  have hi1 : (i 1).val < 4 := (i 1).isLt
  have hi2 : (i 2).val < 256 := (i 2).isLt
  have hi3 : (i 3).val < 256 := (i 3).isLt
  have hN : cfg0.N = 32 := N_0
  refine ⟨⟨(i 0).val, by rw [hN]; exact hi0⟩, flush0_2 _, ?_⟩
  obtain ⟨-, -, -, -, -, -, -, -, -, o0, o1, o2, o3⟩ := idx_facts ⟨(i 0).val, by rw [hN]; exact hi0⟩
  rw [mem_blk]
  intro a
  match a with
  | ⟨0, _⟩ => show win0_2.index _ (0 : Fin 4) * 1 ≤ (i 0).val ∧ (i 0).val < win0_2.index _ (0 : Fin 4) * 1 + 1; rw [o0]; show (i 0).val * 1 ≤ (i 0).val ∧ (i 0).val < (i 0).val * 1 + 1; omega
  | ⟨1, _⟩ => show win0_2.index _ (1 : Fin 4) * 4 ≤ (i 1).val ∧ (i 1).val < win0_2.index _ (1 : Fin 4) * 4 + 4; rw [o1]; omega
  | ⟨2, _⟩ => show win0_2.index _ (2 : Fin 4) * 256 ≤ (i 2).val ∧ (i 2).val < win0_2.index _ (2 : Fin 4) * 256 + 256; rw [o2]; omega
  | ⟨3, _⟩ => show win0_2.index _ (3 : Fin 4) * 256 ≤ (i 3).val ∧ (i 3).val < win0_2.index _ (3 : Fin 4) * 256 + 256; rw [o3]; omega

/-- THE RESULT ARRAY after the region: the aggregation of the launched image by the launched weights. -/
theorem final (hblock : BlockSum) (c : Dev nD) :
    (dats m 0 c).arrAt 2 cfg0.N = agg (m ((c : Thread nD τ).loc main_arg0)) (m ((c : Thread nD τ).loc main_arg1)) := by
  refine ((dats m 0 c).arrAt_eq_of_cover 2 (aggOf (V m c main_v21) (V m c main_arg1)) (fun t _ => flushed_eq m hblock c t) cover).trans ?_
  exact congrArg₂ aggOf (V_main_v21 m c) (V_main_arg1 m c)

/-! ## The reshape after the region, and the run -/

/-- The result buffer after the reshape that follows the region: `result` of the launched image and weights. -/
theorem tail_eq (hblock : BlockSum) (c : Dev nD) :
    Pipeline.afterTail₀ cfgs (dats m) 0 (V0 m) [hostOps1] c main_v23
      = result (m ((c : Thread nD τ).loc main_arg0)) (m ((c : Thread nD τ).loc main_arg1)) := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.devRef .tc main_v22)
      = agg (m ((c : Thread nD τ).loc main_arg0)) (m ((c : Thread nD τ).loc main_arg1)) :=
    (Pipeline.withArrays_arr spec0 launch0.win.arr_inj c (V0 m c) (fun w => (dats m 0 c).arrAt w cfg0.N) 2).trans (final m hblock c)
  rw [e]
  rfl

/-- THE KERNEL'S RUN, READ: every weakly fair execution of the idealized program terminates with the result buffer at
    `result` of the launched image and weights, and both argument arrays as launched. -/
theorem kernel_run (hblock : BlockSum) :
    θ_run defs (onTc (τ := τ) (main (F := Ideal))) ⟨m, fun _ => 0, ρ⟩ (fun r => ∀ c : Dev nD,
      r.2.mem ((c.tc : Thread nD τ).loc main_v23)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v23 (Pipeline.mem_restRefs_of main_v23 (by decide) (by decide))).trans (tail_eq m hblock c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c)))⟩) (run_main m ρ)

end Cert.KernelIdeal.Agg

end
-- ==== Proof.KernelIdealBlock.lean ====
/-
  The aggregation kernel's output block, read at an index.

  At one grid point the body leaves in the output block [1,4,256,256], at group a, channel c and pixel l, the sum
  over the nine taps p of the weight w[0,c,p,l] times the patch value x[0,a,c,p,l]. The four stores fill the four
  slabs along the group axis; each slab's payload drops the leading unit axes of its operands (a row-major reshape
  that keeps every flat position), multiplies elementwise, sums the tap axis, and puts two unit axes back.
-/
import proofs.«165946_j33320356282418_1_alg».proof.Proof.KernelIdealBody
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Agg

open Idealize.ShloMosaic Idealize.ShloMosaic.ValueIdx Cert.KernelIdeal.Gen

/-! ## Reshapes that only drop or add leading unit axes -/

/-- A [1,1,a,b,c] array cast to [a,b,c] reads, at (i,j,k), the operand at (0,0,i,j,k): both indices have the same
    row-major position. -/
theorem cast_11abc_abc {α : Type} {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_five, Shape.rowMajor_val_three]
    show ((((0 * 1 + 0) * a + i.val) * b + j.val) * c + k.val) = (i.val * b + j.val) * c + k.val
    simp only [Nat.zero_mul, Nat.zero_add])

/-- An [a,b] array cast to [1,1,a,b] reads, at (u,v,i,j), the operand at (i,j), whatever the unit coordinates. -/
theorem cast_ab_11ab {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-! ## The tap sum -/

/-- The sum over axis 1 of a [256,9,256] array, accumulated from the additive neutral, is at (c,l) the sum over the
    nine taps p of the array at (c,p,l). -/
theorem tapSum_apply (v : FVec Ideal S256x9x256 .f32) (h : S256x9x256.Reduces [1] S256x256) (hφ : FKind.Formats .f32)
    (hacc : (0x00000000#32 : BitVec 32) = 0x00000000#32) (c l : Fin 256) :
    multiReduction (F := Ideal) .add [1] S256x256 v 0x00000000#32 h hφ hacc (ix2 c l) = ∑ p : Fin 9, v (ix3 c p l) := by
  refine (Ideal.multiReduction_add_single v 0x00000000#32 h hφ hacc (ix2 c l)).trans ?_
  refine Finset.sum_congr rfl fun p _ => congrArg v ?_
  funext d
  apply Fin.ext
  match d with
  | ⟨0, _⟩ => rfl
  | ⟨1, _⟩ => rfl
  | ⟨2, _⟩ => rfl

/-! ## One slab's payload -/

/-- The payload of one slab from the weights already cast to [256,9,256] and the loaded slab [1,1,256,9,256]: at
    (0,0,c,l) the sum over the taps of weight times patch value. -/
theorem pay_cast_apply (wv : FVec Ideal S256x9x256 .f32) (xs : Vec Ideal S1x1x256x9x256 .f32) (c l : Fin 256) :
    k0_pay1 (F := Ideal) wv xs (ix4 (0 : Fin 1) (0 : Fin 1) c l)
      = ∑ p : Fin 9, wv (ix3 c p l) * xs (ix5 (0 : Fin 1) (0 : Fin 1) c p l) := by
  unfold k0_pay1
  refine (cast_ab_11ab _ _ (0 : Fin 1) (0 : Fin 1) c l).trans ?_
  refine (tapSum_apply _ _ _ _ c l).trans ?_
  refine Finset.sum_congr rfl fun p _ => ?_
  refine (mulf_apply _ _ _).trans ?_
  exact congrArg (fun t => wv (ix3 c p l) * t) (cast_11abc_abc xs _ c p l)

/-- The weights' block cast to [256,9,256] reads, at (c,p,l), the block at (0,c,p,l). -/
theorem pay2_apply (wl : Vec Ideal S1x256x9x256 .f32) (c : Fin 256) (p : Fin 9) (l : Fin 256) :
    k0_pay2 (F := Ideal) wl (ix3 c p l) = wl (ix4 (0 : Fin 1) c p l) := by
  unfold k0_pay2
  exact shapeCast_1abc_abc_apply wl _ c p l

/-- The four slabs' payloads are one function of the loaded weights and the loaded slab. -/
theorem pay3_eq (wl : Vec Ideal S1x256x9x256 .f32) (xs : Vec Ideal S1x1x256x9x256 .f32) :
    k0_pay3 (F := Ideal) wl xs = k0_pay1 (k0_pay2 wl) xs := rfl
theorem pay4_eq (wl : Vec Ideal S1x256x9x256 .f32) (xs : Vec Ideal S1x1x256x9x256 .f32) :
    k0_pay4 (F := Ideal) wl xs = k0_pay1 (k0_pay2 wl) xs := rfl
theorem pay5_eq (wl : Vec Ideal S1x256x9x256 .f32) (xs : Vec Ideal S1x1x256x9x256 .f32) :
    k0_pay5 (F := Ideal) wl xs = k0_pay1 (k0_pay2 wl) xs := rfl

/-- One slab's payload from the loaded weights [1,256,9,256] and the loaded slab: at (0,0,c,l) the tap sum. -/
theorem pay_apply (wl : Vec Ideal S1x256x9x256 .f32) (xs : Vec Ideal S1x1x256x9x256 .f32) (c l : Fin 256) :
    k0_pay1 (F := Ideal) (k0_pay2 wl) xs (ix4 (0 : Fin 1) (0 : Fin 1) c l)
      = ∑ p : Fin 9, wl (ix4 (0 : Fin 1) c p l) * xs (ix5 (0 : Fin 1) (0 : Fin 1) c p l) := by
  refine (pay_cast_apply _ xs c l).trans ?_
  exact Finset.sum_congr rfl fun p _ =>
    congrArg (fun t => t * xs (ix5 (0 : Fin 1) (0 : Fin 1) c p l)) (pay2_apply wl c p l)

/-! ## The access rectangles at an index -/

/-- The whole weights block is read in place. -/
theorem rW_idx (c : Fin 256) (p : Fin 9) (l : Fin 256) :
    rW.idx (ix4 (0 : Fin 1) c p l) = ix4 (0 : Fin 1) c p l := by
  funext d
  apply Fin.ext
  match d with
  | ⟨0, _⟩ => show 0 + 1 * 0 = 0; rfl
  | ⟨1, _⟩ => show 0 + 1 * c.val = c.val; omega
  | ⟨2, _⟩ => show 0 + 1 * p.val = p.val; omega
  | ⟨3, _⟩ => show 0 + 1 * l.val = l.val; omega

/-- Slab 0 of the patches' block sits at group 0; -/
theorem rX0_idx (c : Fin 256) (p : Fin 9) (l : Fin 256) :
    rX0.idx (ix5 (0 : Fin 1) (0 : Fin 1) c p l) = ix5 (0 : Fin 1) (0 : Fin 4) c p l := by
  funext d
  apply Fin.ext
  match d with
  | ⟨0, _⟩ => show 0 + 1 * 0 = 0; rfl
  | ⟨1, _⟩ => show 0 + 1 * 0 = 0; rfl
  | ⟨2, _⟩ => show 0 + 1 * c.val = c.val; omega
  | ⟨3, _⟩ => show 0 + 1 * p.val = p.val; omega
  | ⟨4, _⟩ => show 0 + 1 * l.val = l.val; omega

/-- slab 1 at group 1; -/
theorem rX1_idx (c : Fin 256) (p : Fin 9) (l : Fin 256) :
    rX1.idx (ix5 (0 : Fin 1) (0 : Fin 1) c p l) = ix5 (0 : Fin 1) (1 : Fin 4) c p l := by
  funext d
  apply Fin.ext
  match d with
  | ⟨0, _⟩ => show 0 + 1 * 0 = 0; rfl
  | ⟨1, _⟩ => show 1 + 1 * 0 = 1; rfl
  | ⟨2, _⟩ => show 0 + 1 * c.val = c.val; omega
  | ⟨3, _⟩ => show 0 + 1 * p.val = p.val; omega
  | ⟨4, _⟩ => show 0 + 1 * l.val = l.val; omega

/-- slab 2 at group 2; -/
theorem rX2_idx (c : Fin 256) (p : Fin 9) (l : Fin 256) :
    rX2.idx (ix5 (0 : Fin 1) (0 : Fin 1) c p l) = ix5 (0 : Fin 1) (2 : Fin 4) c p l := by
  funext d
  apply Fin.ext
  match d with
  | ⟨0, _⟩ => show 0 + 1 * 0 = 0; rfl
  | ⟨1, _⟩ => show 2 + 1 * 0 = 2; rfl
  | ⟨2, _⟩ => show 0 + 1 * c.val = c.val; omega
  | ⟨3, _⟩ => show 0 + 1 * p.val = p.val; omega
  | ⟨4, _⟩ => show 0 + 1 * l.val = l.val; omega

/-- slab 3 at group 3. -/
theorem rX3_idx (c : Fin 256) (p : Fin 9) (l : Fin 256) :
    rX3.idx (ix5 (0 : Fin 1) (0 : Fin 1) c p l) = ix5 (0 : Fin 1) (3 : Fin 4) c p l := by
  funext d
  apply Fin.ext
  match d with
  | ⟨0, _⟩ => show 0 + 1 * 0 = 0; rfl
  | ⟨1, _⟩ => show 3 + 1 * 0 = 3; rfl
  | ⟨2, _⟩ => show 0 + 1 * c.val = c.val; omega
  | ⟨3, _⟩ => show 0 + 1 * p.val = p.val; omega
  | ⟨4, _⟩ => show 0 + 1 * l.val = l.val; omega

/-- Slab a of the output block holds the indices of group a: -/
theorem rO0_emb (c l : Fin 256) : rO0.emb (ix4 (0 : Fin 1) (0 : Fin 1) c l) = ix4 (0 : Fin 1) (0 : Fin 4) c l := by
  funext d
  apply Fin.ext
  match d with
  | ⟨0, _⟩ => show 0 + 1 * 0 = 0; rfl
  | ⟨1, _⟩ => show 0 + 1 * 0 = 0; rfl
  | ⟨2, _⟩ => show 0 + 1 * c.val = c.val; omega
  | ⟨3, _⟩ => show 0 + 1 * l.val = l.val; omega
theorem rO1_emb (c l : Fin 256) : rO1.emb (ix4 (0 : Fin 1) (0 : Fin 1) c l) = ix4 (0 : Fin 1) (1 : Fin 4) c l := by
  funext d
  apply Fin.ext
  match d with
  | ⟨0, _⟩ => show 0 + 1 * 0 = 0; rfl
  | ⟨1, _⟩ => show 1 + 1 * 0 = 1; rfl
  | ⟨2, _⟩ => show 0 + 1 * c.val = c.val; omega
  | ⟨3, _⟩ => show 0 + 1 * l.val = l.val; omega
theorem rO2_emb (c l : Fin 256) : rO2.emb (ix4 (0 : Fin 1) (0 : Fin 1) c l) = ix4 (0 : Fin 1) (2 : Fin 4) c l := by
  funext d
  apply Fin.ext
  match d with
  | ⟨0, _⟩ => show 0 + 1 * 0 = 0; rfl
  | ⟨1, _⟩ => show 2 + 1 * 0 = 2; rfl
  | ⟨2, _⟩ => show 0 + 1 * c.val = c.val; omega
  | ⟨3, _⟩ => show 0 + 1 * l.val = l.val; omega
theorem rO3_emb (c l : Fin 256) : rO3.emb (ix4 (0 : Fin 1) (0 : Fin 1) c l) = ix4 (0 : Fin 1) (3 : Fin 4) c l := by
  funext d
  apply Fin.ext
  match d with
  | ⟨0, _⟩ => show 0 + 1 * 0 = 0; rfl
  | ⟨1, _⟩ => show 3 + 1 * 0 = 3; rfl
  | ⟨2, _⟩ => show 0 + 1 * c.val = c.val; omega
  | ⟨3, _⟩ => show 0 + 1 * l.val = l.val; omega

/-! ## The four slabs laid side by side -/

/-- Under the last piece listed, the laid-out pieces read that piece's payload. -/
theorem canon_of_emb {S : Shape} {e : EltTy} {Val : EltTy → Type} [∀ e, Nonempty (Val e)] (r : Rect S)
    (pay : r.shape.Idx → Val e) (L : List (View.Piece Val S e)) (z : r.shape.Idx) (y : S.Idx) (hy : r.emb z = y) :
    View.canon (⟨r, pay⟩ :: L) y = pay z := by
  subst hy
  exact View.canon_cons_emb r pay L z

/-- Off the last piece listed, they read what the pieces before it left. -/
theorem canon_skip {S : Shape} {e : EltTy} {Val : EltTy → Type} [∀ e, Nonempty (Val e)] (r : Rect S)
    (pay : r.shape.Idx → Val e) (L : List (View.Piece Val S e)) (y : S.Idx) (hy : y ∉ r.set) :
    View.canon (⟨r, pay⟩ :: L) y = View.canon L y :=
  View.canon_cons_of_not_mem ⟨r, pay⟩ L hy

/-- An index of group a is outside slab 3 unless a is 3, -/
theorem not_mem_rO3 (a : Fin 4) (c l : Fin 256) (ha : a.val ≠ 3) : ix4 (0 : Fin 1) a c l ∉ rO3.set := fun hm => by
  have h := (Rect.mem_set_unit.mp hm) ⟨1, by decide⟩
  have h1 : 3 ≤ a.val := h.1
  have h2 : a.val < 3 + 1 := h.2
  omega
/-- outside slab 2 unless a is 2, -/
theorem not_mem_rO2 (a : Fin 4) (c l : Fin 256) (ha : a.val ≠ 2) : ix4 (0 : Fin 1) a c l ∉ rO2.set := fun hm => by
  have h := (Rect.mem_set_unit.mp hm) ⟨1, by decide⟩
  have h1 : 2 ≤ a.val := h.1
  have h2 : a.val < 2 + 1 := h.2
  omega
/-- outside slab 1 unless a is 1. -/
theorem not_mem_rO1 (a : Fin 4) (c l : Fin 256) (ha : a.val ≠ 1) : ix4 (0 : Fin 1) a c l ∉ rO1.set := fun hm => by
  have h := (Rect.mem_set_unit.mp hm) ⟨1, by decide⟩
  have h1 : 1 ≤ a.val := h.1
  have h2 : a.val < 1 + 1 := h.2
  omega

/-- Group 3: the last store. -/
theorem outBlock_apply_3 (w : Vec Ideal S1x256x9x256 .f32) (x : Vec Ideal S1x4x256x9x256 .f32) (c l : Fin 256) :
    outBlock (F := Ideal) w x (ix4 (0 : Fin 1) (3 : Fin 4) c l)
      = ∑ p : Fin 9, w (ix4 (0 : Fin 1) c p l) * x (ix5 (0 : Fin 1) (3 : Fin 4) c p l) := by
  unfold outBlock
  refine (canon_of_emb rO3 _ _ (ix4 (0 : Fin 1) (0 : Fin 1) c l) _ (rO3_emb c l)).trans ?_
  refine (pay_apply _ _ c l).trans ?_
  exact Finset.sum_congr rfl fun p _ =>
    congrArg₂ (· * ·) (congrArg w (rW_idx c p l)) (congrArg x (rX3_idx c p l))

/-- Group 2: under the store of slab 3. -/
theorem outBlock_apply_2 (w : Vec Ideal S1x256x9x256 .f32) (x : Vec Ideal S1x4x256x9x256 .f32) (c l : Fin 256) :
    outBlock (F := Ideal) w x (ix4 (0 : Fin 1) (2 : Fin 4) c l)
      = ∑ p : Fin 9, w (ix4 (0 : Fin 1) c p l) * x (ix5 (0 : Fin 1) (2 : Fin 4) c p l) := by
  unfold outBlock
  refine (canon_skip rO3 _ _ (ix4 (0 : Fin 1) (2 : Fin 4) c l) (not_mem_rO3 (2 : Fin 4) c l (by decide))).trans ?_
  refine (canon_of_emb rO2 _ _ (ix4 (0 : Fin 1) (0 : Fin 1) c l) _ (rO2_emb c l)).trans ?_
  refine (congrFun (pay5_eq _ _) _).trans ?_
  refine (pay_apply _ _ c l).trans ?_
  exact Finset.sum_congr rfl fun p _ =>
    congrArg₂ (· * ·) (congrArg w (rW_idx c p l)) (congrArg x (rX2_idx c p l))

/-- Group 1: under the stores of slabs 3 and 2. -/
theorem outBlock_apply_1 (w : Vec Ideal S1x256x9x256 .f32) (x : Vec Ideal S1x4x256x9x256 .f32) (c l : Fin 256) :
    outBlock (F := Ideal) w x (ix4 (0 : Fin 1) (1 : Fin 4) c l)
      = ∑ p : Fin 9, w (ix4 (0 : Fin 1) c p l) * x (ix5 (0 : Fin 1) (1 : Fin 4) c p l) := by
  unfold outBlock
  refine (canon_skip rO3 _ _ (ix4 (0 : Fin 1) (1 : Fin 4) c l) (not_mem_rO3 (1 : Fin 4) c l (by decide))).trans ?_
  refine (canon_skip rO2 _ _ (ix4 (0 : Fin 1) (1 : Fin 4) c l) (not_mem_rO2 (1 : Fin 4) c l (by decide))).trans ?_
  refine (canon_of_emb rO1 _ _ (ix4 (0 : Fin 1) (0 : Fin 1) c l) _ (rO1_emb c l)).trans ?_
  refine (congrFun (pay4_eq _ _) _).trans ?_
  refine (pay_apply _ _ c l).trans ?_
  exact Finset.sum_congr rfl fun p _ =>
    congrArg₂ (· * ·) (congrArg w (rW_idx c p l)) (congrArg x (rX1_idx c p l))

/-- Group 0: under the stores of slabs 3, 2 and 1. -/
theorem outBlock_apply_0 (w : Vec Ideal S1x256x9x256 .f32) (x : Vec Ideal S1x4x256x9x256 .f32) (c l : Fin 256) :
    outBlock (F := Ideal) w x (ix4 (0 : Fin 1) (0 : Fin 4) c l)
      = ∑ p : Fin 9, w (ix4 (0 : Fin 1) c p l) * x (ix5 (0 : Fin 1) (0 : Fin 4) c p l) := by
  unfold outBlock
  refine (canon_skip rO3 _ _ (ix4 (0 : Fin 1) (0 : Fin 4) c l) (not_mem_rO3 (0 : Fin 4) c l (by decide))).trans ?_
  refine (canon_skip rO2 _ _ (ix4 (0 : Fin 1) (0 : Fin 4) c l) (not_mem_rO2 (0 : Fin 4) c l (by decide))).trans ?_
  refine (canon_skip rO1 _ _ (ix4 (0 : Fin 1) (0 : Fin 4) c l) (not_mem_rO1 (0 : Fin 4) c l (by decide))).trans ?_
  refine (canon_of_emb rO0 _ _ (ix4 (0 : Fin 1) (0 : Fin 1) c l) _ (rO0_emb c l)).trans ?_
  refine (congrFun (pay3_eq _ _) _).trans ?_
  refine (pay_apply _ _ c l).trans ?_
  exact Finset.sum_congr rfl fun p _ =>
    congrArg₂ (· * ·) (congrArg w (rW_idx c p l)) (congrArg x (rX0_idx c p l))

/-- The output block after the body: at group a, channel c and pixel l, the sum over the nine taps of the weight
    times the patch value. -/
theorem outBlock_apply (w : Vec Ideal S1x256x9x256 .f32) (x : Vec Ideal S1x4x256x9x256 .f32) (a : Fin 4) (c l : Fin 256) :
    outBlock (F := Ideal) w x (ix4 (0 : Fin 1) a c l)
      = ∑ p : Fin 9, w (ix4 (0 : Fin 1) c p l) * x (ix5 (0 : Fin 1) a c p l) :=
  match a with
  | ⟨0, _⟩ => outBlock_apply_0 w x c l
  | ⟨1, _⟩ => outBlock_apply_1 w x c l
  | ⟨2, _⟩ => outBlock_apply_2 w x c l
  | ⟨3, _⟩ => outBlock_apply_3 w x c l

end Cert.KernelIdeal.Agg

end
-- ==== Proof.RefAgg.lean ====
/-
  The reference's result is the aggregation: its run's term, read one host operation at a time, is `result` of the
  two argument arrays.
-/
import proofs.«165946_j33320356282418_1_alg».proof.Proof.AggSpec
import proofs.«165946_j33320356282418_1_alg».proof.Proof.Gen.ReferenceIdeal.Run
import proofs.«165946_j33320356282418_1_alg».proof.Proof.Gen.ReferenceIdeal.Read
import Idealize.ShloMosaic.PureOps.Ideal.Laws
import Idealize.ShloMosaic.Lib.ValueIdx
import Idealize.ShloMosaic.Lib.Pipeline.Value
import Idealize.ShloMosaic.Lib.StableHlo.Run

noncomputable section

namespace Cert.ReferenceIdeal.RefAgg

open Idealize.ShloMosaic Idealize.ShloMosaic.TcCoe Idealize.SL.Sem Idealize.ShloMosaic.ValueIdx

variable [Cert.KernelIdeal.Facts]

/-! ## The patches stage

Both the reference's stages up to the patches array and the specification's `patches` are the same host operations
applied in the same order to the image: pad, nine shifted slices, a unit tap axis on each, the concatenation along
it, and the two re-readings of the row-major sequence. Nothing is evaluated: the two terms are compared as written. -/

/-- The reference's patches stage is the specification's `patches`, as whole arrays. -/
theorem patches_eq (x0 : FVec Ideal Cert.ReferenceIdeal.S32x16x16x1024 .f32) :
    Cert.ReferenceIdeal.Read.val_main_v21 (F := Ideal) x0 = Cert.AggSpec.patches x0 := by
  unfold Cert.ReferenceIdeal.Read.val_main_v21 Cert.ReferenceIdeal.Read.val_main_v20 Cert.ReferenceIdeal.Read.val_main_v19
    Cert.ReferenceIdeal.Read.val_main_v18 Cert.ReferenceIdeal.Read.val_main_v17 Cert.ReferenceIdeal.Read.val_main_v16
    Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_call0_v0 Cert.ReferenceIdeal.Read.val_main_c
    Cert.AggSpec.patches Cert.AggSpec.tap Cert.AggSpec.padded
  rfl

/-! ## The tap sum

At `(n, a, c, l)` the reference's sum over the tap axis reads the product array at `(n, a, c, p, l)`, whose weight
factor is the twice-broadcast weights, that is `w[n, c, p, l]` whatever the channel group `a`. -/

/-- The summand of the tap sum at `(n, a, c, l)` and tap `p` sits at `(n, a, c, p, l)`. -/
theorem idx_sum (n : Fin 32) (a : Fin 4) (c : Fin 256) (l : Fin 256) (p : Fin 9) :
    Cert.ReferenceIdeal.Read.idx_main_v25 (ix4 n a c l) p = ix5 n a c p l :=
  funext fun d => Fin.ext (by
    match d with
    | ⟨0, _⟩ => rfl
    | ⟨1, _⟩ => rfl
    | ⟨2, _⟩ => rfl
    | ⟨3, _⟩ => rfl
    | ⟨4, _⟩ => rfl)

/-- The broadcast weights at `(n, a, c, p, l)` are read from the weights at `(n, c, p, l)`: the channel group is dropped. -/
theorem idx_weights (n : Fin 32) (a : Fin 4) (c : Fin 256) (p : Fin 9) (l : Fin 256) :
    Cert.ReferenceIdeal.Read.idx_main_v22 (Cert.ReferenceIdeal.Read.idx_main_v23 (ix5 n a c p l)) = ix4 n c p l :=
  funext fun d => Fin.ext (by
    match d with
    | ⟨0, _⟩ => rfl
    | ⟨1, _⟩ => rfl
    | ⟨2, _⟩ => rfl
    | ⟨3, _⟩ => rfl)

/-- The reference's array before its last reshape is the aggregation `agg`: at every `(n, a, c, l)` the zero initial
    value plus the sum over the nine taps of weight times patch. -/
theorem agg_eq (x0 : FVec Ideal Cert.ReferenceIdeal.S32x16x16x1024 .f32)
    (x1 : FVec Ideal Cert.ReferenceIdeal.S32x256x9x256 .f32) :
    Cert.ReferenceIdeal.Read.val_main_v25 (F := Ideal) x0 x1 = Cert.AggSpec.agg x0 x1 := by
  funext i
  obtain ⟨n, a, c, l, rfl⟩ : ∃ (n : Fin 32) (a : Fin 4) (c : Fin 256) (l : Fin 256), i = ix4 n a c l :=
    ⟨i 0, i 1, i 2, i 3, eq_ix4 i⟩
  rw [Cert.ReferenceIdeal.Read.val_main_v25_apply]
  have h0 : (Cert.ReferenceIdeal.Read.val_main_cst (F := Ideal)) (Shape.Idx.first Cert.ReferenceIdeal.Gen.h_S_) = 0 :=
    Ideal.ofBits_zero_f32
  rw [h0, zero_add]
  show _ = ∑ p : Fin 9, x1 (ix4 n c p l) * Cert.AggSpec.patches x0 (ix5 n a c p l)
  refine Finset.sum_congr rfl fun p _ => ?_
  rw [idx_sum, Cert.ReferenceIdeal.Read.val_main_v24_apply, Cert.ReferenceIdeal.Read.val_main_v23_apply,
    Cert.ReferenceIdeal.Read.val_main_v22_apply, idx_weights, patches_eq]
  rfl

/-! ## The result and the run -/

/-- The reference's result term is the specification's `result` of the two argument arrays: the aggregation, re-read
    in row-major order as [32,1024,16,16]. -/
theorem res_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v26 (F := Ideal) m' c
      = Cert.AggSpec.result (m' ((c.tc : Thread _ _).loc Cert.ReferenceIdeal.main_arg0))
          (m' ((c.tc : Thread _ _).loc Cert.ReferenceIdeal.main_arg1)) := by
  rw [Cert.ReferenceIdeal.Read.val_main_v26_eq]
  unfold Cert.ReferenceIdeal.Read.val_main_v26 Cert.AggSpec.result
  rw [agg_eq]

/-- Every weakly fair execution of the reference ends with its result at `result` of the two argument arrays it
    started from, and with both arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v26)
          = Cert.AggSpec.result (m' ((c.tc : Thread _ _).loc Cert.ReferenceIdeal.main_arg0))
              (m' ((c.tc : Thread _ _).loc Cert.ReferenceIdeal.main_arg1))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)) :=
  (θ_run _ _ _).mono (fun _ h c => ⟨(h c).1.trans (res_eq m' c), (h c).2⟩)
    (Cert.ReferenceIdeal.Value.run (F := Ideal) m' ρ')

end Cert.ReferenceIdeal.RefAgg

end
-- ==== Proof.lean ====
/-
  The aggregation kernel against its jnp reference, on the extended reals.

  Both programs first unfold the image `x : [32,16,16,1024]` into its 3×3 patches by the same host operations (pad by
  one zero on each spatial side, nine shifted slices, stack along a tap axis, two row-major reshapes to
  [32,4,256,9,256]); call that array `patches x`. The reference broadcasts the weights `w : [32,256,9,256]` over the four
  channel groups, multiplies, and sums the nine taps on the host. The kernel walks the batch axis: at batch row `n` it
  multiplies the weights' row by each of the four group slabs of the patches' row and sums the taps in the body, one
  [256,256] slab at a time. Either way the entry at (n, a, c, l) is the sum over taps `p` of
  `w[n,c,p,l] · patches x [n,a,c,p,l]` — a nine-term sum, the same products in the same order, so no law of the extended
  reals beyond reading both sides at an index is used, and the finiteness precondition is never opened — and both end
  with the same reshape to [32,1024,16,16].

  The frames: each kernel program runs to the end with its argument arrays unchanged (the image is written by no host
  line and is no window of the region; the weights are an input window, which no write-back touches), at the word level
  and at the ideal instance alike; the reference's frame is its run with the result dropped. The ideal pass rewrote
  nothing, so `preserves` is trivial.
-/
import proofs.«165946_j33320356282418_1_alg».proof.Defs
import proofs.«165946_j33320356282418_1_alg».proof.Proof.KernelRun
import proofs.«165946_j33320356282418_1_alg».proof.Proof.KernelIdealValue
import proofs.«165946_j33320356282418_1_alg».proof.Proof.KernelIdealBlock
import proofs.«165946_j33320356282418_1_alg».proof.Proof.RefAgg
import proofs.«165946_j33320356282418_1_alg».proof.Proof.Gen.Kernel
import proofs.«165946_j33320356282418_1_alg».proof.Proof.Gen.KernelIdeal
import proofs.«165946_j33320356282418_1_alg».proof.Proof.Gen.ReferenceIdeal
import proofs.«165946_j33320356282418_1_alg».proof.Proof.Gen.Pre_finite_inputs
import Idealize.ShloMosaic.Adequacy
import Idealize.ShloMosaic.Init

noncomputable section

namespace Cert.Proof

open Idealize.ShloMosaic Idealize.SL.Sem

/-- The printed kernel program runs to the end and leaves both argument arrays as launched. -/
theorem frame_kernel : Cert.frame_Kernel := fun m ρ _ => Cert.Kernel.Agg.frame m ρ

/-- So does its idealization. -/
theorem frame_kernelIdeal : Cert.frame_KernelIdeal := fun m ρ _ => Cert.KernelIdeal.Agg.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the image and the weights, both idealized programs end with their result buffer at
    `result` of the image and the weights: the kernel's run read through its blocks, the reference's read one host
    operation at a time. -/
theorem algebraic : Cert.algebraic_KernelIdeal_ReferenceIdeal := by
  intro m ρ m' ρ' _ hagree
  refine ⟨fun c => Cert.AggSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Agg.kernel_run m ρ Cert.KernelIdeal.Agg.outBlock_apply, ?_⟩
  refine (θ_run Cert.ReferenceIdeal.defs _ _).mono (fun _ h c => ⟨(h c).1.trans ?_, (h c).2⟩)
    (Cert.ReferenceIdeal.RefAgg.ref_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
